-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x128 .f32) (main_arg1 : FVec F S128x128 .f32) (main_arg2 : IVec S800000 32) (main_arg3 : IVec S800000 32) (main_arg4 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S800000 : Shape := ⟨1, ![800000]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩

abbrev nBuf : Space → Nat
  | .hbm => 23
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x1, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x1, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.ResultRun.lean ====
/-
  The idealized kernel's run with its RESULT array kept.

  @main is three segments: the matmul region, the line of host operations (index wrap, gather, scaling, scatter-add),
  the residual-add region. The buffer contents at the segment boundaries are a fold from the launch memory: `W1` after
  the first region (its arrays at what the write-backs leave, the rest as launched), `W2` after the host line, `W3`
  after the second region. The final state is read at the five argument arrays and at the result buffer, which ends
  holding `W3 … main_v14`, whatever that is; the other modules say what it is.
-/
import proofs.«167999_j87866440942261_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W3`, and the argument arrays end as launched: the final state holds every buffer that outlives the
    regions at `W3`, and `W3` at an argument array walks back through the three segments to the launch memory. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.ResultRun

end
-- ==== Proof.MatmulEntry.lean ====
/-
  One entry of the dense feature transform's block.

  At each grid point the first kernel loads a 2000×128 block `x` of the embeddings and the whole 128×128 weight `w`,
  narrows both to bf16, multiplies them on the matrix unit into an f32 accumulator of zeros, and stores the product.
  Over the extended reals a change of float format is the identity and the accumulator is `0`, so entry (r, c) of the
  stored block is the plain sum `∑ k, x (r, k) * w (k, c)` over the 128 contraction positions: the contraction index of
  the dot's dimension numbers is one coordinate `k`, the left operand is read at (r, k) and the right at (k, c).
-/
import proofs.«167999_j87866440942261_1_alg».proof.Proof.Gen.KernelIdeal.Skeleton
import Idealize.ShloMosaic.Lib.ValueIdx
import Idealize.ShloMosaic.PureOps.Ideal.Laws

noncomputable section

namespace Cert.KernelIdeal.MatmulEntry

open Cert.KernelIdeal Cert.KernelIdeal.Gen Idealize.ShloMosaic

/-- Where the left operand is read for output entry `j` = (r, c) and contraction position `k`: at (r, k). -/
abbrev lrow (j : S2000x128.Idx) (k : Fin 128) : S2000x128.Idx := fun a => match a with
  | ⟨0, _⟩ => ⟨(j 0).val, (j 0).isLt⟩
  | ⟨1, _⟩ => ⟨k.val, k.isLt⟩
/-- Where the right operand is read: at (k, c). -/
abbrev rcol (j : S2000x128.Idx) (k : Fin 128) : S128x128.Idx := fun a => match a with
  | ⟨0, _⟩ => ⟨k.val, k.isLt⟩
  | ⟨1, _⟩ => ⟨(j 1).val, (j 1).isLt⟩

/-- The left operand's row coordinate is the output's row: axis 0 is the left operand's free axis. -/
theorem lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column coordinate is the contraction position: axis 1 is the one contracted axis. -/
theorem lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right operand's row coordinate is the contraction position. -/
theorem rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- Its column coordinate is the output's column. -/
theorem rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `j` = (r, c) of the stored block is `∑ k, x (r, k) * w (k, c)`: the product into the zero accumulator is the
    bare sum over the contraction index, re-indexed by its one coordinate, and the narrowing to bf16 changes nothing. -/
theorem pay_apply (x : Vec Ideal S2000x128 .f32) (w : Vec Ideal S128x128 .f32) (j : S2000x128.Idx) :
    k0_pay1 (F := Ideal) x w j = ∑ k : Fin 128, x (lrow j k) * w (rcol j k) := by
  unfold k0_pay1
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lrow j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

end Cert.KernelIdeal.MatmulEntry

end
-- ==== Proof.Weighted.lean ====
/-
  The array the dense feature transform leaves: `weighted = user_emb @ social_weight`.

  The first region's grid has 25 points. Point `t` reads rows 2000·t … 2000·t + 1999 of the embeddings (all 128
  columns), the whole weight matrix, and writes back the same rows of the product array. So the block written back at
  `t` is the restriction to those rows of ONE whole-array function of the two input arrays as the region finds them,
  `prod A W (r, c) = ∑ k, A (r, k) * W (k, c)`, and since the 25 row bands tile the 50000 rows (row `r` lies in band
  `r / 2000`) the array ends holding `prod` of the inputs everywhere.

  Everything here is stated at a parameter `V`, the buffer contents when the region is entered.
-/
import proofs.«167999_j87866440942261_1_alg».proof.Proof.Gen.KernelIdeal.Frame
import proofs.«167999_j87866440942261_1_alg».proof.Proof.MatmulEntry
import Idealize.ShloMosaic.Lib.Pipeline.Value

set_option maxRecDepth 16384

noncomputable section

namespace Cert.KernelIdeal.Weighted

open Cert.KernelIdeal Cert.KernelIdeal.Gen Cert.KernelIdeal.MatmulEntry
open Idealize.ShloMosaic Idealize.ShloMosaic.TcCoe Idealize.SL.Sem
open Idealize.ShloMosaic.Pipeline (Dat)

/-- Where the embeddings are read for product entry `i` = (r, c) and contraction position `k`: at (r, k). -/
abbrev arow (i : S50000x128.Idx) (k : Fin 128) : S50000x128.Idx := fun a => match a with
  | ⟨0, _⟩ => ⟨(i 0).val, (i 0).isLt⟩
  | ⟨1, _⟩ => ⟨k.val, k.isLt⟩
/-- Where the weight is read: at (k, c). -/
abbrev wcol (i : S50000x128.Idx) (k : Fin 128) : S128x128.Idx := fun a => match a with
  | ⟨0, _⟩ => ⟨k.val, k.isLt⟩
  | ⟨1, _⟩ => ⟨(i 1).val, (i 1).isLt⟩

/-- The matrix product of a 50000×128 array and a 128×128 array over the extended reals, entry by entry. -/
def prod (A : S50000x128.Idx → EReal) (W : S128x128.Idx → EReal) : S50000x128.Idx → EReal :=
  fun i => ∑ k : Fin 128, A (arow i k) * W (wcol i k)

/-- A block entry is the product's entry, once each factor of the block's sum is known to be the corresponding
    factor of the array's sum. -/
theorem block_entry (A : S50000x128.Idx → EReal) (W : S128x128.Idx → EReal) (x : Vec Ideal S2000x128 .f32)
    (w : Vec Ideal S128x128 .f32) (j : S2000x128.Idx) (i : S50000x128.Idx)
    (hx : ∀ k, x (lrow j k) = A (arow i k)) (hw : ∀ k, w (rcol j k) = W (wcol i k)) :
    k0_pay1 (F := Ideal) x w j = prod A W i := by
  rw [pay_apply]
  exact Finset.sum_congr rfl fun k _ => by rw [hx k, hw k]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the embeddings' block and the product's block are row band `t`
    (column band 0), the weight's block is always the whole matrix. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is band `t` of the product of the two input arrays as the region finds them. -/
theorem flushed_eq (c : Dev nD) (t : Fin cfg0.N) :
    (dat0 V c).flushed 2 t = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  refine block_entry (V c main_arg0) (V c main_arg1) (iblk0 V c 0 t) (iblk0 V c 1 t) j (((cfg0.win 2).blk t).view.emb j) (fun k => ?_) (fun k => ?_)
  · show V c main_arg0 (((cfg0.win 0).blk t).view.emb (lrow j k)) = V c main_arg0 (arow (((cfg0.win 2).blk t).view.emb j) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg1 (((cfg0.win 1).blk t).view.emb (rcol j k)) = V c main_arg1 (wcol (((cfg0.win 2).blk t).view.emb j) k)
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An entry of the product array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every row band is some point's. -/
theorem idx_onto : ∀ q : Fin 25, ∃ t : Fin cfg0.N, t.val = q.val :=
  (by decide +kernel : ∀ q : Fin 25, ∃ t : Fin grid0.N, t.val = q.val)

/-- The 25 bands tile the array: row `r` is in band `r / 2000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE ARRAY after the region: the product of the two input arrays as the region finds them. -/
theorem final (c : Dev nD) : (dat0 V c).arrAt 2 cfg0.N = prod (V c main_arg0) (V c main_arg1) :=
  (dat0 V c).arrAt_eq_of_cover 2 _ (fun t _ => flushed_eq V c t) cover

end Cert.KernelIdeal.Weighted

end
-- ==== Proof.Residual.lean ====
/-
  The array the residual add leaves: `out = user_emb + neighbor`.

  The second region's grid has 25 points. Point `t` reads rows 2000·t … 2000·t + 1999 of the embeddings and of the
  aggregated neighbour array, adds them entry by entry (the reshape between the load and the sum is to the same shape,
  the identity), and writes back the same rows of the result. So the block written back at `t` is the restriction to
  those rows of the entrywise sum of the two input arrays as the region finds them, and since the 25 row bands tile the
  50000 rows the result array ends holding that sum everywhere. No property of the numbers is used: this holds for any
  float values.

  Everything here is stated at a parameter `V`, the buffer contents when the region is entered.
-/
import proofs.«167999_j87866440942261_1_alg».proof.Proof.Gen.KernelIdeal.Frame
import Idealize.ShloMosaic.Lib.Pipeline.Value

set_option maxRecDepth 16384

noncomputable section

namespace Cert.KernelIdeal.Residual

open Cert.KernelIdeal Cert.KernelIdeal.Gen
open Idealize.ShloMosaic Idealize.ShloMosaic.TcCoe Idealize.SL.Sem
open Idealize.ShloMosaic.Pipeline (Dat)

variable {F : FTy → Type} [FloatOps F]

/-- An entry of the stored block is the sum of the two loaded blocks' entries. -/
theorem pay_apply (x y : Vec F S2000x128 .f32) (j : S2000x128.Idx) :
    k1_pay1 (F := F) x y j = FloatOps.addf (x j) (y j) := by
  unfold k1_pay1
  rw [shapeCast_self]
  rfl

/-- A block entry is the sum array's entry, once each summand is known to be the corresponding array entry. -/
theorem block_entry (A B : S50000x128.Idx → Elt F .f32) (x y : Vec F S2000x128 .f32) (j : S2000x128.Idx) (i : S50000x128.Idx)
    (hx : x j = A i) (hy : y j = B i) : k1_pay1 (F := F) x y j = addf (F := F) A B i := by
  rw [pay_apply, hx, hy]
  rfl

variable (V : (c : Dev nD) → (b : Ref sig .tc) → Buf (Elt F) ((c : Thread nD τ).loc b))

theorem hz : (![0, 0] : Fin 2 → Nat) = fun _ => 0 := funext fun a => by fin_cases a <;> rfl

/-- The printed index maps over the 25 grid points: all three blocks are row band `t` (column band 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point `t` writes back is band `t` of the entrywise sum of the two input arrays as the region finds them. -/
theorem flushed_eq (c : Dev nD) (t : Fin cfg1.N) :
    (dat1 V c).flushed 2 t = ((cfg1.win 2).blk t).view.read (Elt F) (addf (F := F) (V c main_arg0) (V c main_v13)) := by
  show (cfg1.win 2).cut (grid1.coords t) ((dat1 V c).after 2 t) = _
  rw [after1_2]
  unfold out1_2
  rw [View.canon_unit_zero hz]
  simp only [View.ld_unit_zero (S := S2000x128) hz]
  obtain ⟨e0, e1, e2, e3, e4, e5⟩ := idx_facts t
  funext j
  refine block_entry (V c main_arg0) (V c main_v13) (iblk1 V c 0 t) (iblk1 V c 1 t) j (((cfg1.win 2).blk t).view.emb j) ?_ ?_
  · show V c main_arg0 (((cfg1.win 0).blk t).view.emb j) = V c main_arg0 (((cfg1.win 2).blk t).view.emb j)
    refine congrArg (V c main_arg0) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · show V c main_v13 (((cfg1.win 1).blk t).view.emb j) = V c main_v13 (((cfg1.win 2).blk t).view.emb j)
    refine congrArg (V c main_v13) ?_
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 128 + 1 * (j 1).val = win1_2.index t (1 : Fin 2) * 128 + 1 * (j 1).val; omega

/-- An entry of the result array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v14).slice (win1_2.rect t)).set ↔ _
  rw [View.set_slice_whole, Rect.mem_set_unit]
  exact Iff.rfl

/-- Every row band is some point's. -/
theorem idx_onto : ∀ q : Fin 25, ∃ t : Fin cfg1.N, t.val = q.val :=
  (by decide +kernel : ∀ q : Fin 25, ∃ t : Fin grid1.N, t.val = q.val)

/-- The 25 bands tile the array: row `r` is in band `r / 2000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  obtain ⟨e0, e1, e2, e3, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE ARRAY after the region: the entrywise sum of the two input arrays as the region finds them. -/
theorem final (c : Dev nD) : (dat1 V c).arrAt 2 cfg1.N = addf (F := F) (V c main_arg0) (V c main_v13) :=
  (dat1 V c).arrAt_eq_of_cover 2 _ (fun t _ => flushed_eq V c t) cover

end Cert.KernelIdeal.Residual

end
-- ==== Proof.KernelValue.lean ====
/-
  What the idealized kernel's result array holds, as one function of the launch memory.

  Between the two regions @main runs a line of host operations that never looks inside the transformed features
  except to gather rows from them: wrap negative source indices by adding 50000, gather the 800000 source rows, scale
  row e by `vals e`, and scatter-add the scaled rows into a zero array at the destination indices. That line is
  named once here, `neighbor P rows cols vals`, as a function of the array `P` it gathers from, and is never opened:
  whatever it computes, it computes from its four operands.

  Walking the segment boundaries from the launch memory: after the first region the feature buffer holds the matrix
  product of the embeddings and the weight, and the index and value arrays are untouched; after the host line the
  neighbour buffer holds `neighbor` of those; after the second region the result buffer holds the embeddings plus the
  neighbour buffer, entry by entry. Composed:
      result = user_emb + neighbor (user_emb · social_weight) rows cols vals.
-/
import proofs.«167999_j87866440942261_1_alg».proof.Proof.Gen.KernelIdeal.Frame
import proofs.«167999_j87866440942261_1_alg».proof.Proof.Weighted
import proofs.«167999_j87866440942261_1_alg».proof.Proof.Residual
import Idealize.ShloMosaic.Lib.StableHlo.Run
import Idealize.ShloMosaic.PureOps.Ideal

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

/-- The sparse aggregation as a function of the array `P` it gathers rows from, in the host operations' own words:
    with `src e = cols e + 50000` where `cols e < 0` and `cols e` otherwise, row e of the gathered array is row
    `src e` of `P` (as the gather reads a start index), it is scaled by `vals e`, and the scaled rows are
    scatter-added into a zero array at the destination indices `rows e`. -/
def neighbor (P : (⟨S50000x128, .f32⟩ : BufTy).Contents (Elt Ideal)) (rows cols : (⟨S800000, .i32⟩ : BufTy).Contents (Elt Ideal))
    (vals : (⟨S800000, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 rows)
    (mulf (F := Ideal)
      (Host.gather gather_S50000x128_S800000x1_S800000x128_1_0_n_n_0_1_1128 P
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32)))
            cols)))
      (broadcastInDim S800000x128 ![0, 1] bcast_S800000x1_S800000x128_0_1
        (broadcastInDim S800000x1 ![0] bcast_S800000_S800000x1_0 vals)))

variable (m : (ℓ : Loc nD τ sig) → Buf (Elt Ideal) ℓ) (ρ : Dev nD → PrngReg)

/-! ## After the first region -/

/-- The feature buffer holds the product of the launch embeddings and weight. -/
theorem W1_features (c : Dev nD) : W1 m ρ c (Proc.devRef .tc main_v0)
    = Weighted.prod (m ((c : Thread nD τ).loc main_arg0)) (m ((c : Thread nD τ).loc main_arg1)) :=
  (W1_arr m ρ c 2).trans (Weighted.final (V0 m ρ) c)

/-- The first region does not touch the destination indices, the source indices or the edge values. -/
theorem W1_rows (c : Dev nD) : W1 m ρ c (Proc.devRef .tc main_arg2) = (m ((c : Thread nD τ).loc main_arg2)) :=
  W1_of_ne m ρ c main_arg2 (by decide)
theorem W1_cols (c : Dev nD) : W1 m ρ c (Proc.devRef .tc main_arg3) = (m ((c : Thread nD τ).loc main_arg3)) :=
  W1_of_ne m ρ c main_arg3 (by decide)
theorem W1_vals (c : Dev nD) : W1 m ρ c (Proc.devRef .tc main_arg4) = (m ((c : Thread nD τ).loc main_arg4)) :=
  W1_of_ne m ρ c main_arg4 (by decide)

/-! ## After the host line -/

/-- The neighbour buffer holds the aggregation of the product. -/
theorem W2_neighbor (c : Dev nD) : W2 m ρ c (Proc.devRef .tc main_v13)
    = neighbor (Weighted.prod (m ((c : Thread nD τ).loc main_arg0)) (m ((c : Thread nD τ).loc main_arg1)))
        (m ((c : Thread nD τ).loc main_arg2)) (m ((c : Thread nD τ).loc main_arg3)) (m ((c : Thread nD τ).loc main_arg4)) := by
  have h : W2 m ρ c (Proc.devRef .tc main_v13)
      = neighbor (W1 m ρ c (Proc.devRef .tc main_v0)) (W1 m ρ c (Proc.devRef .tc main_arg2))
          (W1 m ρ c (Proc.devRef .tc main_arg3)) (W1 m ρ c (Proc.devRef .tc main_arg4)) := by
    show StableHlo.after hostOps1 (W1 m ρ c) (Proc.devRef .tc main_v13) = _
    after_results
    rfl
  rw [h, W1_features, W1_rows, W1_cols, W1_vals]

/-- The embeddings are still the launch embeddings: neither the first region nor the host line writes them. -/
theorem W2_embeddings (c : Dev nD) : W2 m ρ c (Proc.devRef .tc main_arg0) = (m ((c : Thread nD τ).loc main_arg0)) :=
  ((W3_arr m ρ c 0).trans (((dat1 (V2 m ρ) c).arrAt_in 0 rfl _).trans (A_eq1 (V2 m ρ) c 0))).symm.trans (W3_main_arg0 m ρ c)

/-! ## After the second region -/

/-- THE RESULT: the embeddings plus the aggregation of the product, entry by entry. -/
theorem result (c : Dev nD) : W3 m ρ c (Proc.devRef .tc main_v14)
    = addf (F := Ideal) (s := S50000x128) (φ := .f32) (m ((c : Thread nD τ).loc main_arg0))
        (neighbor (Weighted.prod (m ((c : Thread nD τ).loc main_arg0)) (m ((c : Thread nD τ).loc main_arg1)))
          (m ((c : Thread nD τ).loc main_arg2)) (m ((c : Thread nD τ).loc main_arg3)) (m ((c : Thread nD τ).loc main_arg4))) :=
  ((W3_arr m ρ c 2).trans (Residual.final (V2 m ρ) c)).trans (by
    show addf (F := Ideal) (s := S50000x128) (φ := .f32) (W2 m ρ c (Proc.devRef .tc main_arg0)) (W2 m ρ c (Proc.devRef .tc main_v13)) = _
    rw [W2_embeddings, W2_neighbor])

end Cert.KernelIdeal.KernelValue

end
-- ==== Proof.RefValue.lean ====
/-
  The reference's result is the same function of the arguments as the kernel's.

  The reference computes `user_emb + segment_sum (weighted[cols] * vals[:, None], rows)` with
  `weighted = user_emb @ social_weight` as one host matrix product. Over the extended reals that host product, read at
  entry (r, c), is the sum over the 128 contraction positions of `user_emb (r, k) * social_weight (k, c)` — the same sum, in
  the same order, that the kernel's 25 row bands assemble. Everything after the product (index wrap, gather, scaling,
  scatter-add, the final sum with the embeddings) is operation for operation the line the kernel's program runs between
  and in its two regions, so once the two products are identified the two results are one term.
-/
import proofs.«167999_j87866440942261_1_alg».proof.Proof.Gen.ReferenceIdeal.Read
import proofs.«167999_j87866440942261_1_alg».proof.Proof.KernelValue

noncomputable section

namespace Cert.ReferenceIdeal.RefValue

open Cert.ReferenceIdeal Idealize.ShloMosaic

/-- The host matrix product is the entrywise sum of products: at entry `i` = (r, c) the left operand is read at (r, k)
    and the right at (k, c). -/
theorem dot_eq_prod (x0 : FVec Ideal S50000x128 .f32) (x1 : FVec Ideal S128x128 .f32) :
    Host.dotGeneral (F := Ideal) dot_S50000x128_S128x128_S50000x128_1_0_0_1_n_n none x0 x1 = Cert.KernelIdeal.Weighted.prod x0 x1 := by
  funext i
  refine (Read.val_main_v0_apply x0 x1 i).trans ?_
  unfold Cert.KernelIdeal.Weighted.prod
  refine Finset.sum_congr rfl fun k _ => ?_
  have el : Read.lidx_main_v0 i k = Cert.KernelIdeal.Weighted.arow i k := funext fun a => by
    match a with
    | ⟨0, _⟩ => rfl
    | ⟨1, _⟩ => rfl
  have er : Read.ridx_main_v0 i k = Cert.KernelIdeal.Weighted.wcol i k := funext fun a => by
    match a with
    | ⟨0, _⟩ => rfl
    | ⟨1, _⟩ => rfl
  rw [el, er]

/-- The reference's result term is the embeddings plus the aggregation of the product: the kernel's function. -/
theorem result_eq (x0 : FVec Ideal S50000x128 .f32) (x1 : FVec Ideal S128x128 .f32)
    (x2 x3 : IVec S800000 32) (x4 : FVec Ideal S800000 .f32) :
    Read.val_main_v14 (F := Ideal) x0 x1 x2 x3 x4
      = addf (F := Ideal) (s := S50000x128) (φ := .f32) x0 (Cert.KernelIdeal.KernelValue.neighbor (Cert.KernelIdeal.Weighted.prod x0 x1) x2 x3 x4) := by
  rw [← dot_eq_prod]
  rfl

end Cert.ReferenceIdeal.RefValue

end
-- ==== Proof.lean ====
/-
  A graph-convolution layer with a social adjacency, `out = user_emb + A · (user_emb · W)`, where the sparse matrix `A`
  is given by 800000 edges (destination `rows e`, source `cols e`, weight `vals e`) over 50000 users with 128 features.

  The kernel's program computes the dense product `user_emb · W` in a first tiled kernel (25 bands of 2000 rows, bf16
  operands on the matrix unit, f32 accumulation), leaves the sparse aggregation to host operations (wrap negative
  source indices, gather the source rows, scale by the edge weights, scatter-add at the destinations), and adds the
  embeddings back in a second tiled kernel over the same 25 bands. The reference does the product as one host matrix
  product, the same aggregation, and one host addition.

  Over the extended reals the two results are equal entry by entry, for every input: a change of float format is the
  identity, so a band's product entry is the plain sum `∑ k, user_emb (r, k) * W (k, c)`, which is what the host product
  is at that entry; the bands tile the rows, so the first kernel leaves exactly the host product; the aggregation is
  the same operations applied to the same arrays; and the second kernel's bands assemble exactly the entrywise sum.
  No law that could fail at an infinity is used (no distributivity, no cancellation), so the finiteness of the inputs
  is never needed. The idealized kernel is the kernel's own text read over the extended reals: no operation was
  rewritten, so there is nothing to preserve beyond that.
-/
import proofs.«167999_j87866440942261_1_alg».proof.Defs
import proofs.«167999_j87866440942261_1_alg».proof.Proof.Gen.Kernel
import proofs.«167999_j87866440942261_1_alg».proof.Proof.Gen.Kernel.Skeleton
import proofs.«167999_j87866440942261_1_alg».proof.Proof.Gen.Kernel.Launch
import proofs.«167999_j87866440942261_1_alg».proof.Proof.Gen.Kernel.Points
import proofs.«167999_j87866440942261_1_alg».proof.Proof.Gen.Kernel.Frame
import proofs.«167999_j87866440942261_1_alg».proof.Proof.Gen.KernelIdeal
import proofs.«167999_j87866440942261_1_alg».proof.Proof.Gen.KernelIdeal.Skeleton
import proofs.«167999_j87866440942261_1_alg».proof.Proof.Gen.KernelIdeal.Launch
import proofs.«167999_j87866440942261_1_alg».proof.Proof.Gen.KernelIdeal.Points
import proofs.«167999_j87866440942261_1_alg».proof.Proof.Gen.KernelIdeal.Frame
import proofs.«167999_j87866440942261_1_alg».proof.Proof.Gen.ReferenceIdeal
import proofs.«167999_j87866440942261_1_alg».proof.Proof.Gen.ReferenceIdeal.Run
import proofs.«167999_j87866440942261_1_alg».proof.Proof.Gen.ReferenceIdeal.Read
import proofs.«167999_j87866440942261_1_alg».proof.Proof.Gen.Pre_finite_inputs
import proofs.«167999_j87866440942261_1_alg».proof.Proof.ResultRun
import proofs.«167999_j87866440942261_1_alg».proof.Proof.KernelValue
import proofs.«167999_j87866440942261_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and its argument arrays end as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a line of host operations: its run ends with the arguments as launched. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories agreeing on the five arguments both programs end with the result array at
    `user_emb + neighbor (user_emb · W) rows cols vals`: the kernel by its run read at the result buffer and the three
    boundary steps, the reference by its run's term, which is that function. -/
theorem algebraic : Cert.algebraic_KernelIdeal_ReferenceIdeal := by
  intro m ρ m' ρ' _ hagree
  refine ⟨fun c => addf (F := Ideal) (s := Cert.KernelIdeal.S50000x128) (φ := .f32) (m ((c.tc : Thread Cert.KernelIdeal.nD Cert.KernelIdeal.τ).loc Cert.KernelIdeal.main_arg0))
      (Cert.KernelIdeal.KernelValue.neighbor
        (Cert.KernelIdeal.Weighted.prod (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.KernelValue.result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    rw [h0, h1, h2, h3, h4]
    exact (Cert.ReferenceIdeal.Read.val_main_v14_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
